-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg18 : FVec F S512 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  main_v93

def fn_part4 {F : FTy → Type} [FloatOps F] (main_arg14 : FVec F S512 .f32) (main_arg15 : FVec F S512x512 .f32) (main_arg16 : FVec F S512 .f32) (main_arg17 : FVec F S512x512 .f32) (main_arg18 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_arg15 main_arg16 main_arg17 main_arg18 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x512 .f32) (main_arg1 : FVec F S16384x512 .f32) (main_arg2 : FVec F S16384x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x512 : Shape := ⟨2, ![16384, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S1x2048 : Shape := ⟨2, ![1, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 31
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S2048x512, .f32⟩
  | .hbm, ⟨20, _⟩ => ⟨S2048x512, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S1x2048, .f32⟩
  | .hbm, ⟨25, _⟩ => ⟨S512x2048, .f32⟩
  | .hbm, ⟨26, _⟩ => ⟨S512x2048, .f32⟩
  | .hbm, ⟨27, _⟩ => ⟨S1024x2048, .f32⟩
  | .hbm, ⟨28, _⟩ => ⟨S1024x2048, .bf16⟩
  | .hbm, ⟨29, _⟩ => ⟨S16384x512, .f32⟩
  | .hbm, ⟨30, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x2048, .bf16⟩
  | .local _ .vmem, ⟨7, _⟩ => ⟨S1x2048, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S512x512_S512x512_S512x512_S512x512_S2048x512_d0 : Shape.Concatenates [S512x512, S512x512, S512x512, S512x512] S2048x512 0
  concatenates_S512_S512_S512_S512_S2048_d0 : Shape.Concatenates [S512, S512, S512, S512] S2048 0
  shapeCasts_S2048_S1x2048 : S2048.ShapeCasts S1x2048
  transposes_S2048x512_S512x2048_1_0 : S2048x512.Transposes [1, 0] S512x2048
  concatenates_S512x2048_S512x2048_S1024x2048_d0 : Shape.Concatenates [S512x2048, S512x2048] S1024x2048 0
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  concatenates_S512x512_S512x512_S512x1024_d1 : Shape.Concatenates [S512x512, S512x512] S512x1024 1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S16384x512.size a
  hwx0_5 : ∀ i : grid0.Coords, EltTy.bits .f32 = 32 ∨ (Rect.block (s := S16384x512) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S16384x2048 : Shape := ⟨2, ![16384, 2048]⟩
abbrev S1x2048 : Shape := ⟨2, ![1, 2048]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S2048x512, .f32⟩
  | .hbm, ⟨20, _⟩ => ⟨S2048x512, .f32⟩
  | .hbm, ⟨21, _⟩ => ⟨S2048, .f32⟩
  | .hbm, ⟨22, _⟩ => ⟨S2048, .f32⟩
  | .hbm, ⟨23, _⟩ => ⟨S512x2048, .f32⟩
  | .hbm, ⟨24, _⟩ => ⟨S16384x2048, .f32⟩
  | .hbm, ⟨25, _⟩ => ⟨S512x2048, .f32⟩
  | .hbm, ⟨26, _⟩ => ⟨S16384x2048, .f32⟩
  | .hbm, ⟨27, _⟩ => ⟨S16384x2048, .f32⟩
  | .hbm, ⟨28, _⟩ => ⟨S2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S_, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16384x512, .f32⟩
  | .hbm, ⟨57, _⟩ => ⟨S16384x512, .f32⟩
  | .hbm, ⟨58, _⟩ => ⟨S_, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  concatenates_S512x512_S512x512_S512x512_S512x512_S2048x512_d0 : Shape.Concatenates [S512x512, S512x512, S512x512, S512x512] S2048x512 0
  concatenates_S512_S512_S512_S512_S2048_d0 : Shape.Concatenates [S512, S512, S512, S512] S2048 0
  transposes_S2048x512_S512x2048_1_0 : S2048x512.Transposes [1, 0] S512x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.KernelFrame.lean ====
/-
  The LSTM cell program runs to its end, faults nowhere and leaves its nineteen arguments as they were; and after the
  run each of its two result arrays is, block by block, what the kernel's body stored there.

  The program first stacks the gates' parameters (four concatenations, a sum of the stacked biases laid out as a row,
  two transpositions, a concatenation of the two transposed weight matrices, a change of float format), none of which
  writes an argument, and then runs one kernel over a grid of 32 points. At point t the kernel is handed rows
  512·t … 512·t + 511 of the inputs x, h and c, the whole stacked weight matrix and the whole bias row (both brought in
  at the first point only, and found in place afterwards), and two blocks of 512 rows to fill: it reads its five
  inputs whole, computes, and stores each result block whole. So what a result block holds after the body is one
  function of the five input blocks (the two functions `outH` and `outC` below, over the body's arithmetic as the
  skeleton names it), the inputs' staging blocks are as the body found them, and nothing else is touched.
-/
import proofs.«128756_j28501402976812_2_alg».proof.Proof.Gen.Kernel.Launch
import proofs.«128756_j28501402976812_2_alg».proof.Proof.Gen.Kernel.Skeleton
import proofs.«128756_j28501402976812_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel -/

/-- What each buffer of the core holds when the kernel starts: the launch memory after the ten host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the kernel's region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument: each result goes to a buffer of its own. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input's staging block holds the input's block at every point, whether it was brought in there or was already
    in place (the weights and the bias after the first point: their block index never moves). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that names every array -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## What the body stores -/

abbrev rIn : Rect S512x512 := Rect.unit (s := S512x512) ![0, 0] S512x512.size inb_S512x512_S512x512_0_0
abbrev rW : Rect S1024x2048 := Rect.unit (s := S1024x2048) ![0, 0] S1024x2048.size inb_S1024x2048_S1024x2048_0_0
abbrev rB : Rect S1x2048 := Rect.unit (s := S1x2048) ![0, 0] S1x2048.size inb_S1x2048_S1x2048_0_0

/-- The next cell state's block, from the five input blocks (x, h, c, the stacked weights, the bias row). -/
def cellPay (x0 x1 x2 : Vec F S512x512 .f32) (x3 : Vec F S1024x2048 .bf16) (x4 : Vec F S1x2048 .f32) : FVec F S512x512 .f32 :=
  k0_pay1 (k0_pay4 (View.ld x0 rIn) (View.ld x1 rIn) (View.ld x3 rW) (View.ld x4 rB)) (k0_pay5 (View.ld x0 rIn) (View.ld x1 rIn) (View.ld x3 rW) (View.ld x4 rB)) (k0_pay7 (View.ld x0 rIn) (View.ld x1 rIn) (View.ld x3 rW) (View.ld x4 rB)) (View.ld x2 rIn)

/-- The next hidden state's block, from the same five. -/
def hiddenPay (x0 x1 x2 : Vec F S512x512 .f32) (x3 : Vec F S1024x2048 .bf16) (x4 : Vec F S1x2048 .f32) : FVec F S512x512 .f32 :=
  k0_pay2 (k0_pay4 (View.ld x0 rIn) (View.ld x1 rIn) (View.ld x3 rW) (View.ld x4 rB)) (k0_pay5 (View.ld x0 rIn) (View.ld x1 rIn) (View.ld x3 rW) (View.ld x4 rB)) (k0_pay6 (View.ld x0 rIn) (View.ld x1 rIn) (View.ld x3 rW) (View.ld x4 rB)) (k0_pay7 (View.ld x0 rIn) (View.ld x1 rIn) (View.ld x3 rW) (View.ld x4 rB)) (View.ld x2 rIn)

/-- What the hidden-state result's staging block holds after the body: its one store, of the whole block. -/
def outH (x0 x1 x2 : Vec F S512x512 .f32) (x3 : Vec F S1024x2048 .bf16) (x4 : Vec F S1x2048 .f32) : Vec F S512x512 .f32 :=
  View.canon [⟨rIn, hiddenPay x0 x1 x2 x3 x4⟩]

/-- What the cell-state result's staging block holds after the body. -/
def outC (x0 x1 x2 : Vec F S512x512 .f32) (x3 : Vec F S1024x2048 .bf16) (x4 : Vec F S1x2048 .f32) : Vec F S512x512 .f32 :=
  View.canon [⟨rIn, cellPay x0 x1 x2 x3 x4⟩]

/-- One store of the whole block covers the block. -/
theorem cover_out (p0 : Vec F S512x512 .f32) (y : S512x512.Idx) :
    ∃ pc ∈ ([⟨rIn, p0⟩] : List (View.Piece (Elt F) S512x512 .f32)), y ∈ pc.1.set :=
  View.cover_of_tiled [⟨rIn, p0⟩] S512x512.size (by rfl) y

/-! ## The body's triple -/

set_option maxHeartbeats 1000000 in
/-- The body, on whole staging blocks — the five inputs' at known contents, the two results' at anything — runs to
    the end leaving the inputs' as they were and the results' at `outH` and `outC` of the inputs'. -/
theorem sound_kernel (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S512x512 .f32) (harg6 : arg6.IsWhole)
    (arg7 : Memref sig .tc .vmem S512x512 .f32) (harg7 : arg7.IsWhole)
    (x0 x1 x2 : Vec F S512x512 .f32) (x3 : Vec F S1024x2048 .bf16) (x4 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outH x0 x1 x2 x3 x4) ∗ owns (c : Thread nD τ) arg7 fullShare (outC x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover_out _)
  iexists _; isplitr
  swap; · iexact H6
  ipureintro
  try dsimp only
  exact View.read_writes_eq_canon _ _ _ (cover_out _)

/-! ## The pipeline's proof data -/

/-- On core `c`: the arrays as the kernel finds them; after the body at point `t` each input's staging block at its
    block of the array, each result's at what the body stored from the five input blocks; nothing else owned. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outH (iblk m c 0 t) (iblk m c 1 t) (iblk m c 2 t) (iblk m c 3 t) (iblk m c 4 t)
    | ⟨6, _⟩ => outC (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_outH (c : Dev nD) (t : Fin cfg0.N) :
    (dats m 0 c).after 5 t = outH (iblk m c 0 t) (iblk m c 1 t) (iblk m c 2 t) (iblk m c 3 t) (iblk m c 4 t) := by dsimp only [dats]
theorem after_outC (c : Dev nD) (t : Fin cfg0.N) :
    (dats m 0 c).after 6 t = outC (iblk m c 0 t) (iblk m c 1 t) (iblk m c 2 t) (iblk m c 3 t) (iblk m c 4 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_outH, after_outC]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; at the end each of the kernel's seven arrays holds what
    the proof data says and every other unscoped buffer what it held when the kernel started. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its arguments end unchanged, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Hand

end
-- ==== Proof.KernelIdealFrame.lean ====
/-
  The LSTM cell program runs to its end, faults nowhere and leaves its nineteen arguments as they were; and after the
  run each of its two result arrays is, block by block, what the kernel's body stored there.

  The program first stacks the gates' parameters (four concatenations, a sum of the stacked biases laid out as a row,
  two transpositions, a concatenation of the two transposed weight matrices, a change of float format), none of which
  writes an argument, and then runs one kernel over a grid of 32 points. At point t the kernel is handed rows
  512·t … 512·t + 511 of the inputs x, h and c, the whole stacked weight matrix and the whole bias row (both brought in
  at the first point only, and found in place afterwards), and two blocks of 512 rows to fill: it reads its five
  inputs whole, computes, and stores each result block whole. So what a result block holds after the body is one
  function of the five input blocks (the two functions `outH` and `outC` below, over the body's arithmetic as the
  skeleton names it), the inputs' staging blocks are as the body found them, and nothing else is touched.
-/
import proofs.«128756_j28501402976812_2_alg».proof.Proof.Gen.KernelIdeal.Launch
import proofs.«128756_j28501402976812_2_alg».proof.Proof.Gen.KernelIdeal.Skeleton
import proofs.«128756_j28501402976812_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel -/

/-- What each buffer of the core holds when the kernel starts: the launch memory after the ten host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the kernel's region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument: each result goes to a buffer of its own. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input's staging block holds the input's block at every point, whether it was brought in there or was already
    in place (the weights and the bias after the first point: their block index never moves). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that names every array -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## What the body stores -/

abbrev rIn : Rect S512x512 := Rect.unit (s := S512x512) ![0, 0] S512x512.size inb_S512x512_S512x512_0_0
abbrev rW : Rect S1024x2048 := Rect.unit (s := S1024x2048) ![0, 0] S1024x2048.size inb_S1024x2048_S1024x2048_0_0
abbrev rB : Rect S1x2048 := Rect.unit (s := S1x2048) ![0, 0] S1x2048.size inb_S1x2048_S1x2048_0_0

/-- The next cell state's block, from the five input blocks (x, h, c, the stacked weights, the bias row). -/
def cellPay (x0 x1 x2 : Vec F S512x512 .f32) (x3 : Vec F S1024x2048 .bf16) (x4 : Vec F S1x2048 .f32) : FVec F S512x512 .f32 :=
  k0_pay1 (k0_pay4 (View.ld x0 rIn) (View.ld x1 rIn) (View.ld x3 rW) (View.ld x4 rB)) (k0_pay5 (View.ld x0 rIn) (View.ld x1 rIn) (View.ld x3 rW) (View.ld x4 rB)) (k0_pay7 (View.ld x0 rIn) (View.ld x1 rIn) (View.ld x3 rW) (View.ld x4 rB)) (View.ld x2 rIn)

/-- The next hidden state's block, from the same five. -/
def hiddenPay (x0 x1 x2 : Vec F S512x512 .f32) (x3 : Vec F S1024x2048 .bf16) (x4 : Vec F S1x2048 .f32) : FVec F S512x512 .f32 :=
  k0_pay2 (k0_pay4 (View.ld x0 rIn) (View.ld x1 rIn) (View.ld x3 rW) (View.ld x4 rB)) (k0_pay5 (View.ld x0 rIn) (View.ld x1 rIn) (View.ld x3 rW) (View.ld x4 rB)) (k0_pay6 (View.ld x0 rIn) (View.ld x1 rIn) (View.ld x3 rW) (View.ld x4 rB)) (k0_pay7 (View.ld x0 rIn) (View.ld x1 rIn) (View.ld x3 rW) (View.ld x4 rB)) (View.ld x2 rIn)

/-- What the hidden-state result's staging block holds after the body: its one store, of the whole block. -/
def outH (x0 x1 x2 : Vec F S512x512 .f32) (x3 : Vec F S1024x2048 .bf16) (x4 : Vec F S1x2048 .f32) : Vec F S512x512 .f32 :=
  View.canon [⟨rIn, hiddenPay x0 x1 x2 x3 x4⟩]

/-- What the cell-state result's staging block holds after the body. -/
def outC (x0 x1 x2 : Vec F S512x512 .f32) (x3 : Vec F S1024x2048 .bf16) (x4 : Vec F S1x2048 .f32) : Vec F S512x512 .f32 :=
  View.canon [⟨rIn, cellPay x0 x1 x2 x3 x4⟩]

/-- One store of the whole block covers the block. -/
theorem cover_out (p0 : Vec F S512x512 .f32) (y : S512x512.Idx) :
    ∃ pc ∈ ([⟨rIn, p0⟩] : List (View.Piece (Elt F) S512x512 .f32)), y ∈ pc.1.set :=
  View.cover_of_tiled [⟨rIn, p0⟩] S512x512.size (by rfl) y

/-! ## The body's triple -/

set_option maxHeartbeats 1000000 in
/-- The body, on whole staging blocks — the five inputs' at known contents, the two results' at anything — runs to
    the end leaving the inputs' as they were and the results' at `outH` and `outC` of the inputs'. -/
theorem sound_kernel (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S512x512 .f32) (harg6 : arg6.IsWhole)
    (arg7 : Memref sig .tc .vmem S512x512 .f32) (harg7 : arg7.IsWhole)
    (x0 x1 x2 : Vec F S512x512 .f32) (x3 : Vec F S1024x2048 .bf16) (x4 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outH x0 x1 x2 x3 x4) ∗ owns (c : Thread nD τ) arg7 fullShare (outC x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover_out _)
  iexists _; isplitr
  swap; · iexact H6
  ipureintro
  try dsimp only
  exact View.read_writes_eq_canon _ _ _ (cover_out _)

/-! ## The pipeline's proof data -/

/-- On core `c`: the arrays as the kernel finds them; after the body at point `t` each input's staging block at its
    block of the array, each result's at what the body stored from the five input blocks; nothing else owned. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outH (iblk m c 0 t) (iblk m c 1 t) (iblk m c 2 t) (iblk m c 3 t) (iblk m c 4 t)
    | ⟨6, _⟩ => outC (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_outH (c : Dev nD) (t : Fin cfg0.N) :
    (dats m 0 c).after 5 t = outH (iblk m c 0 t) (iblk m c 1 t) (iblk m c 2 t) (iblk m c 3 t) (iblk m c 4 t) := by dsimp only [dats]
theorem after_outC (c : Dev nD) (t : Fin cfg0.N) :
    (dats m 0 c).after 6 t = outC (iblk m c 0 t) (iblk m c 1 t) (iblk m c 2 t) (iblk m c 3 t) (iblk m c 4 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_outH, after_outC]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; at the end each of the kernel's seven arrays holds what
    the proof data says and every other unscoped buffer what it held when the kernel started. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its arguments end unchanged, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Hand

end
-- ==== Proof.KernelParams.lean ====
/-
  The two operands the host computes for the kernel, entry by entry.

  Stack the four gates' input weights into Wx (2048 rows of 512: gate after gate) and the four hidden weights into
  Wh, the biases into bx and bh. The kernel's weight operand is the 1024 × 2048 matrix whose first 512 rows are the
  transpose of Wx and whose last 512 rows are the transpose of Wh (the change of float format is the identity on
  extended reals), so

      W[k, n] = Wx[n, k]   and   W[512 + k, n] = Wh[n, k]      (k < 512, n < 2048),

  and its bias operand is the row bx + bh:  b[0, n] = bx[n] + bh[n].
-/
import proofs.«128756_j28501402976812_2_alg».proof.Proof.KernelIdealFrame
import Idealize.ShloMosaic.Lib.Pipeline.Value
import Idealize.ShloMosaic.Lib.ValueIdx
import Idealize.ShloMosaic.Lib.StableHlo.Run

noncomputable section

namespace Cert.KernelIdeal.ParamValue

open Cert.KernelIdeal Cert.KernelIdeal.Gen Cert.KernelIdeal.Hand
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The stacked parameters, from the launch memory of core `c`. -/
def Wx (c : Dev nD) : S2048x512.Idx → EReal :=
  concatenate S2048x512 0 [⟨S512x512, m ((c : Thread nD τ).loc main_arg3)⟩, ⟨S512x512, m ((c : Thread nD τ).loc main_arg5)⟩, ⟨S512x512, m ((c : Thread nD τ).loc main_arg7)⟩, ⟨S512x512, m ((c : Thread nD τ).loc main_arg9)⟩] concatenates_S512x512_S512x512_S512x512_S512x512_S2048x512_d0
def Wh (c : Dev nD) : S2048x512.Idx → EReal :=
  concatenate S2048x512 0 [⟨S512x512, m ((c : Thread nD τ).loc main_arg11)⟩, ⟨S512x512, m ((c : Thread nD τ).loc main_arg13)⟩, ⟨S512x512, m ((c : Thread nD τ).loc main_arg15)⟩, ⟨S512x512, m ((c : Thread nD τ).loc main_arg17)⟩] concatenates_S512x512_S512x512_S512x512_S512x512_S2048x512_d0
def bx (c : Dev nD) : S2048.Idx → EReal :=
  concatenate S2048 0 [⟨S512, m ((c : Thread nD τ).loc main_arg4)⟩, ⟨S512, m ((c : Thread nD τ).loc main_arg6)⟩, ⟨S512, m ((c : Thread nD τ).loc main_arg8)⟩, ⟨S512, m ((c : Thread nD τ).loc main_arg10)⟩] concatenates_S512_S512_S512_S512_S2048_d0
def bh (c : Dev nD) : S2048.Idx → EReal :=
  concatenate S2048 0 [⟨S512, m ((c : Thread nD τ).loc main_arg12)⟩, ⟨S512, m ((c : Thread nD τ).loc main_arg14)⟩, ⟨S512, m ((c : Thread nD τ).loc main_arg16)⟩, ⟨S512, m ((c : Thread nD τ).loc main_arg18)⟩] concatenates_S512_S512_S512_S512_S2048_d0

/-- The weight operand as the kernel finds it: the two transposes, one above the other. -/
theorem weights_eq (c : Dev nD) : @Eq (S1024x2048.Idx → EReal) (V m c main_v9)
    (truncf (F := Ideal) (φ := .f32) .bf16 (concatenate S1024x2048 0 [⟨S512x2048, transpose S512x2048 [1, 0] (Wx m c) transposes_S2048x512_S512x2048_1_0⟩,
        ⟨S512x2048, transpose S512x2048 [1, 0] (Wh m c) transposes_S2048x512_S512x2048_1_0⟩] concatenates_S512x2048_S512x2048_S1024x2048_d0) bitsLt_bf16_f32) := by
  dsimp only [V, hostOps0]; after_results; rfl

/-- The bias operand as the kernel finds it: the sum of the stacked biases, laid out as a row. -/
theorem bias_eq (c : Dev nD) : @Eq (S1x2048.Idx → EReal) (V m c main_v5)
    (shapeCast S1x2048 (addf (F := Ideal) (φ := .f32) (bx m c) (bh m c)) shapeCasts_S2048_S1x2048) := by
  dsimp only [V, hostOps0]; after_results; rfl

/-- The transposed matrices, at an entry. -/
theorem transposed_apply (A : S2048x512.Idx → EReal) (k : Fin 512) (n : Fin 2048) :
    transpose S512x2048 [1, 0] A transposes_S2048x512_S512x2048_1_0 (ix2 k n) = A (ix2 n k) :=
  transpose_apply [1, 0] A transposes_S2048x512_S512x2048_1_0 (ix2 k n) (ix2 n k) (fun b => by
    match b with
    | ⟨0, _⟩ => rfl
    | ⟨1, _⟩ => rfl)

/-- W[k, n] = Wx[n, k] on the first 512 rows … -/
theorem weights_top (c : Dev nD) (k : Fin 512) (n : Fin 2048) :
    (V m c main_v9 : S1024x2048.Idx → EReal) (ix2 (⟨k.val, by have := k.isLt; omega⟩ : Fin 1024) n) = Wx m c (ix2 n k) := by
  rw [weights_eq]
  refine (truncf_apply (φ := .f32) (ψ := .bf16) _ bitsLt_bf16_f32 _).trans ?_
  refine (concatenate_pair_apply_left (t := S1024x2048) (s₁ := S512x2048) (s₂ := S512x2048) (0 : Fin 2) _ _ concatenates_S512x2048_S512x2048_S1024x2048_d0
    (ix2 (⟨k.val, by have := k.isLt; omega⟩ : Fin 1024) n) rfl (ix2 k n) (fun b => by
    match b with
    | ⟨0, _⟩ => rfl
    | ⟨1, _⟩ => rfl)).trans ?_
  exact transposed_apply _ k n

/-- … and W[512 + k, n] = Wh[n, k] on the last 512. -/
theorem weights_bottom (c : Dev nD) (k : Fin 512) (n : Fin 2048) :
    (V m c main_v9 : S1024x2048.Idx → EReal) (ix2 (⟨512 + k.val, by have := k.isLt; omega⟩ : Fin 1024) n) = Wh m c (ix2 n k) := by
  rw [weights_eq]
  refine (truncf_apply (φ := .f32) (ψ := .bf16) _ bitsLt_bf16_f32 _).trans ?_
  refine (concatenate_pair_apply_right (t := S1024x2048) (s₁ := S512x2048) (s₂ := S512x2048) (0 : Fin 2) _ _ concatenates_S512x2048_S512x2048_S1024x2048_d0
    (ix2 (⟨512 + k.val, by have := k.isLt; omega⟩ : Fin 1024) n) rfl rfl (ix2 k n) (fun b hb => by
    match b, hb with
    | ⟨0, _⟩, hb => exact absurd rfl hb
    | ⟨1, _⟩, _ => rfl) (by show k.val + 512 = 512 + k.val; omega)).trans ?_
  exact transposed_apply _ k n

/-- b[0, n] = bx[n] + bh[n]. -/
theorem bias_apply (c : Dev nD) (n : Fin 2048) :
    (V m c main_v5 : S1x2048.Idx → EReal) (ix2 (0 : Fin 1) n) = bx m c (ix1 n) + bh m c (ix1 n) := by
  rw [bias_eq]
  refine (shapeCast_addUnit_apply ![2048] _ shapeCasts_S2048_S1x2048 (ix2 (0 : Fin 1) n)).trans ?_
  have e : (fun a : Fin 1 => (ix2 (0 : Fin 1) n) a.succ) = ix1 n := funext fun a => by
    match a with
    | ⟨0, _⟩ => rfl
  rw [e]; rfl

end Cert.KernelIdeal.ParamValue

end
-- ==== Proof.LstmSpec.lean ====
/-
  One step of an LSTM cell, entry by entry, over the extended reals.

  The arguments are a batch of inputs x and of previous hidden states h (one row per sample), the previous cell
  states c, and the four gates' parameters stacked gate after gate — input, forget, candidate, output —: two weight
  matrices Wx, Wh with one row per gate column (2048 = 4 · 512 of them) and two bias vectors bx, bh. For sample p and
  gate column n the pre-activation is

      pre p n = (Σ_k x[p,k] · Wx[n,k] + Σ_k h[p,k] · Wh[n,k]) + (bx[n] + bh[n]),

  the three gates are the logistic function of their pre-activations, the candidate the hyperbolic tangent of its
  own, and

      c'[p,q] = σ(pre p (512 + q)) · c[p,q] + σ(pre p q) · tanh(pre p (1024 + q)),
      h'[p,q] = σ(pre p (1536 + q)) · tanh(c'[p,q]).

  The logistic function is written as the quotient 1 / (1 + e^(−z)), with the float word of 1.0 left as a word.
-/
import Idealize.ShloMosaic.PureOps.Ideal
import Idealize.ShloMosaic.Lib.ValueIdx

noncomputable section

namespace Cert.LstmSpec

open Idealize.ShloMosaic Idealize.ShloMosaic.ValueIdx

/-- A matrix and a vector of extended reals, indexed as the programs index their arrays. -/
abbrev Mat (a b : Nat) : Type := (⟨2, ![a, b]⟩ : Shape).Idx → EReal
abbrev Col (a : Nat) : Type := (⟨1, ![a]⟩ : Shape).Idx → EReal

/-- The float words of 1.0 and of 0.5, as the extended reals they denote. -/
abbrev one : EReal := Ideal.ofBits .f32 0x3F800000#32
abbrev half : EReal := Ideal.ofBits .f32 0x3F000000#32

/-- Gate column `o + q` of the 2048 stacked columns, for a gate whose columns start at `o`. -/
abbrev gcol (o : Nat) (q : Fin 512) (ho : o + 512 ≤ 2048) : Fin 2048 := ⟨o + q.val, by have := q.isLt; omega⟩

/-- The pre-activation of gate column `n` for sample `p`. -/
def pre (x h : Mat 16384 512) (Wx Wh : Mat 2048 512) (bx bh : Col 2048) (p : Fin 16384) (n : Fin 2048) : EReal :=
  ((∑ k : Fin 512, x (ix2 p k) * Wx (ix2 n k)) + ∑ k : Fin 512, h (ix2 p k) * Wh (ix2 n k)) + (bx (ix1 n) + bh (ix1 n))

/-- The logistic function, as a quotient. -/
def sigm (z : EReal) : EReal := Ideal.div one (one + Ideal.exp (-z))

/-- The next cell state at sample `p`, unit `q`. -/
def cellNext (x h c : Mat 16384 512) (Wx Wh : Mat 2048 512) (bx bh : Col 2048) (p : Fin 16384) (q : Fin 512) : EReal :=
  sigm (pre x h Wx Wh bx bh p (gcol 512 q (by decide))) * c (ix2 p q)
    + sigm (pre x h Wx Wh bx bh p (gcol 0 q (by decide))) * Ideal.tanh (pre x h Wx Wh bx bh p (gcol 1024 q (by decide)))

/-- The next hidden state at sample `p`, unit `q`. -/
def hiddenNext (x h c : Mat 16384 512) (Wx Wh : Mat 2048 512) (bx bh : Col 2048) (p : Fin 16384) (q : Fin 512) : EReal :=
  sigm (pre x h Wx Wh bx bh p (gcol 1536 q (by decide))) * Ideal.tanh (cellNext x h c Wx Wh bx bh p q)

/-- The two results as whole arrays. -/
def cellArr (x h c : Mat 16384 512) (Wx Wh : Mat 2048 512) (bx bh : Col 2048) : Mat 16384 512 :=
  fun j => cellNext x h c Wx Wh bx bh ⟨(j 0).val, idx2_lt0 j⟩ ⟨(j 1).val, idx2_lt1 j⟩

def hiddenArr (x h c : Mat 16384 512) (Wx Wh : Mat 2048 512) (bx bh : Col 2048) : Mat 16384 512 :=
  fun j => hiddenNext x h c Wx Wh bx bh ⟨(j 0).val, idx2_lt0 j⟩ ⟨(j 1).val, idx2_lt1 j⟩

theorem cellArr_apply (x h c : Mat 16384 512) (Wx Wh : Mat 2048 512) (bx bh : Col 2048) (p : Fin 16384) (q : Fin 512) :
    cellArr x h c Wx Wh bx bh (ix2 p q) = cellNext x h c Wx Wh bx bh p q := rfl

theorem hiddenArr_apply (x h c : Mat 16384 512) (Wx Wh : Mat 2048 512) (bx bh : Col 2048) (p : Fin 16384) (q : Fin 512) :
    hiddenArr x h c Wx Wh bx bh (ix2 p q) = hiddenNext x h c Wx Wh bx bh p q := rfl

end Cert.LstmSpec

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.KernelCell.lean ====
/-
  What the kernel's body computes from its five input blocks, entry by entry, over the extended reals.

  At a grid point the body holds 512 rows of x, of h and of c, the whole stacked weight matrix W (1024 rows: the
  first 512 multiply x, the last 512 multiply h; 2048 columns, 512 per gate) and the bias row b. It forms the row
  [x | h] of length 1024, multiplies it into W with a zero accumulator and adds b; so the pre-activation at row r and
  gate column n is

      (Σ_{k<512} x[r,k] · W[k,n] + Σ_{k<512} h[r,k] · W[512+k,n]) + b[0,n]

  (a sum over 1024 positions is the sum of its two halves: addition of extended reals is commutative and
  associative, nothing finite is needed). The three gates are taken as ½·(tanh(½·z) + 1) of their pre-activations,
  the candidate as tanh z, and the two stores are  f·c + i·g  and  o·tanh(f·c + i·g).
-/
import proofs.«128756_j28501402976812_2_alg».proof.Proof.Gen.KernelIdeal.Skeleton
import proofs.«128756_j28501402976812_2_alg».proof.Proof.LstmSpec
import proofs.«128756_j28501402976812_2_alg».proof.Proof.LibPlainContract
import Idealize.ShloMosaic.Lib.Pipeline.Value
import Idealize.ShloMosaic.Lib.ValueIdx
import Idealize.ShloMosaic.PureOps.Ideal.Laws

noncomputable section

namespace Cert.KernelIdeal.CellValue

open Cert.KernelIdeal Cert.KernelIdeal.Gen Idealize.ShloMosaic Idealize.ShloMosaic.ValueIdx Cert.LstmSpec

/-- A sum over 1024 positions is the sum over the first 512 plus the sum over the last 512. -/
theorem sum_halves (f : Fin 1024 → EReal) :
    ∑ k : Fin 1024, f k
      = (∑ k : Fin 512, f ⟨k.val, by have := k.isLt; omega⟩) + ∑ k : Fin 512, f ⟨512 + k.val, by have := k.isLt; omega⟩ :=
  Fin.sum_univ_add (M := EReal) (a := 512) (b := 512) f

/-- The row [x | h]: its first 512 entries are x's … -/
theorem row_left (u v : S512x512.Idx → EReal) (r k : Fin 512) :
    concatenate S512x1024 1 [⟨S512x512, u⟩, ⟨S512x512, v⟩] concatenates_S512x512_S512x512_S512x1024_d1
        (ix2 r (⟨k.val, by have := k.isLt; omega⟩ : Fin 1024)) = u (ix2 r k) :=
  concatenate_pair_apply_left (t := S512x1024) (s₁ := S512x512) (s₂ := S512x512) (1 : Fin 2) u v concatenates_S512x512_S512x512_S512x1024_d1
    (ix2 r (⟨k.val, by have := k.isLt; omega⟩ : Fin 1024)) rfl (ix2 r k) (fun b => by
    match b with
    | ⟨0, _⟩ => rfl
    | ⟨1, _⟩ => rfl)

/-- … and its last 512 are h's. -/
theorem row_right (u v : S512x512.Idx → EReal) (r k : Fin 512) :
    concatenate S512x1024 1 [⟨S512x512, u⟩, ⟨S512x512, v⟩] concatenates_S512x512_S512x512_S512x1024_d1
        (ix2 r (⟨512 + k.val, by have := k.isLt; omega⟩ : Fin 1024)) = v (ix2 r k) :=
  concatenate_pair_apply_right (t := S512x1024) (s₁ := S512x512) (s₂ := S512x512) (1 : Fin 2) u v concatenates_S512x512_S512x512_S512x1024_d1
    (ix2 r (⟨512 + k.val, by have := k.isLt; omega⟩ : Fin 1024)) rfl rfl (ix2 r k) (fun b hb => by
    match b, hb with
    | ⟨0, _⟩, _ => rfl
    | ⟨1, _⟩, hb => exact absurd rfl hb) (by show k.val + 512 = 512 + k.val; omega)

/-- The pre-activation the body forms at row `r`, gate column `n`, from its blocks. -/
def blkPre (x h : S512x512.Idx → EReal) (W : S1024x2048.Idx → EReal) (b : S1x2048.Idx → EReal) (r : Fin 512) (n : Fin 2048) : EReal :=
  ((∑ k : Fin 512, x (ix2 r k) * W (ix2 (⟨k.val, by have := k.isLt; omega⟩ : Fin 1024) n))
    + ∑ k : Fin 512, h (ix2 r k) * W (ix2 (⟨512 + k.val, by have := k.isLt; omega⟩ : Fin 1024) n)) + b (ix2 (0 : Fin 1) n)

/-- A gate as the body writes it: ½·(tanh(½·z) + 1). -/
def gateT (z : EReal) : EReal := half * (Ideal.tanh (half * z) + one)

/-- The body's first store (the next cell state) and second (the next hidden state) at row `r`, unit `q`. -/
def blkCell (x h c : S512x512.Idx → EReal) (W : S1024x2048.Idx → EReal) (b : S1x2048.Idx → EReal) (r q : Fin 512) : EReal :=
  gateT (blkPre x h W b r (gcol 512 q (by decide))) * c (ix2 r q)
    + gateT (blkPre x h W b r (gcol 0 q (by decide))) * Ideal.tanh (blkPre x h W b r (gcol 1024 q (by decide)))

def blkHidden (x h c : S512x512.Idx → EReal) (W : S1024x2048.Idx → EReal) (b : S1x2048.Idx → EReal) (r q : Fin 512) : EReal :=
  gateT (blkPre x h W b r (gcol 1536 q (by decide))) * Ideal.tanh (blkCell x h c W b r q)

/-- The matrix product into the zero accumulator plus the bias row, at an entry. -/
theorem pay3_apply (x0 x1 : Vec Ideal S512x512 .f32) (x3 : Vec Ideal S1024x2048 .bf16) (x4 : Vec Ideal S1x2048 .f32)
    (r : Fin 512) (n : Fin 2048) : k0_pay3 x0 x1 x3 x4 (ix2 r n) = blkPre x0 x1 x3 x4 r n := by
  unfold k0_pay3 blkPre
  rw [shapeCast_self, shapeCast_self]
  refine (addf_apply _ _ _).trans ?_
  congr 1
  · refine (Cert.LibPlainContract.matmul_plain_apply 512 1024 2048 (φ₁ := .bf16) (φ₂ := .bf16) none _ x3 r n).trans ?_
    rw [sum_halves]
    congr 1
    · refine Finset.sum_congr rfl fun k _ => ?_
      rw [row_left]; rfl
    · refine Finset.sum_congr rfl fun k _ => ?_
      rw [row_right]; rfl
  · exact broadcastTo_apply _ _ _ (ix2 (0 : Fin 1) n) (fun a => by
      match a with
      | ⟨0, _⟩ => rfl
      | ⟨1, _⟩ => rfl)

/-- A gate's 512 columns, cut out of the 2048. -/
theorem gate_cols (o : Nat) (ho : o + 512 ≤ 2048) (v : S512x2048.Idx → EReal) (h : S512x2048.Slices ![0, o] S512x512) (r q : Fin 512) :
    extractStridedSlice S512x512 ![0, o] v h (ix2 r q) = v (ix2 r (gcol o q ho)) :=
  extractStridedSlice_apply ![0, o] v h (ix2 r q) (ix2 r (gcol o q ho)) (fun a => by
    match a with
    | ⟨0, _⟩ => show r.val = 0 + r.val; omega
    | ⟨1, _⟩ => rfl)

theorem pay4_apply (x0 x1 : Vec Ideal S512x512 .f32) (x3 : Vec Ideal S1024x2048 .bf16) (x4 : Vec Ideal S1x2048 .f32) (r q : Fin 512) :
    k0_pay4 x0 x1 x3 x4 (ix2 r q) = gateT (blkPre x0 x1 x3 x4 r (gcol 0 q (by decide))) := by
  have hs := (gate_cols 0 (by decide) (k0_pay3 x0 x1 x3 x4) slices_S512x2048_o0_0_S512x512 r q).trans (pay3_apply x0 x1 x3 x4 r _)
  unfold k0_pay4 gateT
  show half * (Ideal.tanh (half * extractStridedSlice S512x512 ![0, 0] (k0_pay3 x0 x1 x3 x4) slices_S512x2048_o0_0_S512x512 (ix2 r q)) + one) = _
  rw [hs]

theorem pay5_apply (x0 x1 : Vec Ideal S512x512 .f32) (x3 : Vec Ideal S1024x2048 .bf16) (x4 : Vec Ideal S1x2048 .f32) (r q : Fin 512) :
    k0_pay5 x0 x1 x3 x4 (ix2 r q) = gateT (blkPre x0 x1 x3 x4 r (gcol 512 q (by decide))) := by
  have hs := (gate_cols 512 (by decide) (k0_pay3 x0 x1 x3 x4) slices_S512x2048_o0_512_S512x512 r q).trans (pay3_apply x0 x1 x3 x4 r _)
  unfold k0_pay5 gateT
  show half * (Ideal.tanh (half * extractStridedSlice S512x512 ![0, 512] (k0_pay3 x0 x1 x3 x4) slices_S512x2048_o0_512_S512x512 (ix2 r q)) + one) = _
  rw [hs]

theorem pay6_apply (x0 x1 : Vec Ideal S512x512 .f32) (x3 : Vec Ideal S1024x2048 .bf16) (x4 : Vec Ideal S1x2048 .f32) (r q : Fin 512) :
    k0_pay6 x0 x1 x3 x4 (ix2 r q) = gateT (blkPre x0 x1 x3 x4 r (gcol 1536 q (by decide))) := by
  have hs := (gate_cols 1536 (by decide) (k0_pay3 x0 x1 x3 x4) slices_S512x2048_o0_1536_S512x512 r q).trans (pay3_apply x0 x1 x3 x4 r _)
  unfold k0_pay6 gateT
  show half * (Ideal.tanh (half * extractStridedSlice S512x512 ![0, 1536] (k0_pay3 x0 x1 x3 x4) slices_S512x2048_o0_1536_S512x512 (ix2 r q)) + one) = _
  rw [hs]

theorem pay7_apply (x0 x1 : Vec Ideal S512x512 .f32) (x3 : Vec Ideal S1024x2048 .bf16) (x4 : Vec Ideal S1x2048 .f32) (r q : Fin 512) :
    k0_pay7 x0 x1 x3 x4 (ix2 r q) = Ideal.tanh (blkPre x0 x1 x3 x4 r (gcol 1024 q (by decide))) := by
  have hs := (gate_cols 1024 (by decide) (k0_pay3 x0 x1 x3 x4) slices_S512x2048_o0_1024_S512x512 r q).trans (pay3_apply x0 x1 x3 x4 r _)
  unfold k0_pay7
  show Ideal.tanh (extractStridedSlice S512x512 ![0, 1024] (k0_pay3 x0 x1 x3 x4) slices_S512x2048_o0_1024_S512x512 (ix2 r q)) = _
  rw [hs]

/-- The body's two stores at an entry. -/
theorem cell_apply (x0 x1 x2 : Vec Ideal S512x512 .f32) (x3 : Vec Ideal S1024x2048 .bf16) (x4 : Vec Ideal S1x2048 .f32) (r q : Fin 512) :
    k0_pay1 (k0_pay4 x0 x1 x3 x4) (k0_pay5 x0 x1 x3 x4) (k0_pay7 x0 x1 x3 x4) x2 (ix2 r q) = blkCell x0 x1 x2 x3 x4 r q := by
  unfold k0_pay1 blkCell
  show k0_pay5 x0 x1 x3 x4 (ix2 r q) * x2 (ix2 r q) + k0_pay4 x0 x1 x3 x4 (ix2 r q) * k0_pay7 x0 x1 x3 x4 (ix2 r q) = _
  rw [pay4_apply, pay5_apply, pay7_apply]

theorem hidden_apply (x0 x1 x2 : Vec Ideal S512x512 .f32) (x3 : Vec Ideal S1024x2048 .bf16) (x4 : Vec Ideal S1x2048 .f32) (r q : Fin 512) :
    k0_pay2 (k0_pay4 x0 x1 x3 x4) (k0_pay5 x0 x1 x3 x4) (k0_pay6 x0 x1 x3 x4) (k0_pay7 x0 x1 x3 x4) x2 (ix2 r q) = blkHidden x0 x1 x2 x3 x4 r q := by
  unfold k0_pay2 blkHidden
  show k0_pay6 x0 x1 x3 x4 (ix2 r q) * Ideal.tanh (k0_pay1 (k0_pay4 x0 x1 x3 x4) (k0_pay5 x0 x1 x3 x4) (k0_pay7 x0 x1 x3 x4) x2 (ix2 r q)) = _
  rw [pay6_apply, cell_apply]

end Cert.KernelIdeal.CellValue

end
-- ==== Proof.LstmLaws.lean ====
/-
  The logistic function through the hyperbolic tangent, over the extended reals.

  For every extended real z,

      ½ · (tanh(½ · z) + 1) = 1 / (1 + e^(−z)).

  At a real z this is the identity of real analysis: with u = e^(z/2),
  tanh(z/2) = (u − u⁻¹)/(u + u⁻¹), so ½(tanh(z/2) + 1) = u/(u + u⁻¹) = 1/(1 + u⁻²) = 1/(1 + e^(−z)).
  At +∞ both sides are 1 (tanh = 1 on the left; e^(−∞) = 0 on the right), and at −∞ both are 0
  (tanh = −1 on the left; 1/(1 + ∞) = 1 · ∞⁻¹ = 0 on the right).

  The two float words that occur, of 1.0 and of 0.5, denote the reals 1 and ½.
-/
import proofs.«128756_j28501402976812_2_alg».proof.Proof.LstmSpec

noncomputable section

namespace Cert.LstmLaws

open Idealize.ShloMosaic Cert.LstmSpec

/-- The float word of 1.0 denotes 1. -/
theorem one_eq : one = 1 := by
  simp [one, Ideal.ofBits, Ideal.ieee, -EReal.coe_mul]; norm_num

/-- The float word of 0.5 denotes ½. -/
theorem half_eq : half = ((1/2 : ℝ) : EReal) := by
  simp [half, Ideal.ofBits, Ideal.ieee, -EReal.coe_mul]; norm_num

/-- The identity at a real argument, with the quotient written as a product by the inverse. -/
theorem real_sigm (r : ℝ) : (1/2 : ℝ) * (Real.tanh ((1/2) * r) + 1) = 1 * (1 + Real.exp (-r))⁻¹ := by
  have h1 : Real.exp (-r) = (Real.exp ((1/2) * r))⁻¹ * (Real.exp ((1/2) * r))⁻¹ := by
    rw [← Real.exp_neg, ← Real.exp_add]; congr 1; ring
  have hpos : 0 < Real.exp ((1/2) * r) := Real.exp_pos _
  rw [Real.tanh_eq_sinh_div_cosh, Real.sinh_eq, Real.cosh_eq, h1, Real.exp_neg]
  field_simp
  ring

/-- −1 + 1 = 0 among the extended reals (both summands are real). -/
theorem neg_one_add_one : (-1 : EReal) + 1 = 0 := by
  show -((1 : ℝ) : EReal) + ((1 : ℝ) : EReal) = 0
  rw [← EReal.coe_neg, ← EReal.coe_add]; norm_num

/-- ½ · (1 + 1) = 1 among the extended reals. -/
theorem half_mul_two : ((1/2 : ℝ) : EReal) * ((1 : EReal) + 1) = 1 := by
  show ((1/2 : ℝ) : EReal) * (((1 : ℝ) : EReal) + ((1 : ℝ) : EReal)) = 1
  rw [← EReal.coe_add, ← EReal.coe_mul]; norm_num

/-- The logistic function is ½ · (tanh(½ · z) + 1), at every extended real. -/
theorem sigm_eq_tanh_form (z : EReal) : half * (Ideal.tanh (half * z) + one) = sigm z := by
  rw [sigm, half_eq, one_eq]
  have hpos : (0 : ℝ) < 1/2 := by norm_num
  induction z using EReal.rec with
  | bot =>
    -- left: ½ · ⊥ = ⊥, tanh ⊥ = −1, ½ · (−1 + 1) = 0; right: e^(−⊥) = ⊤, 1 + ⊤ = ⊤, 1 · ⊤⁻¹ = 0
    rw [EReal.coe_mul_bot_of_pos hpos, EReal.neg_bot]
    have h2 : ((1 : EReal) + ⊤) = ⊤ := EReal.coe_add_top 1
    show ((1/2 : ℝ) : EReal) * ((-1 : EReal) + 1) = Ideal.div 1 (1 + ⊤)
    rw [neg_one_add_one, h2, mul_zero, Ideal.div, if_neg EReal.top_ne_zero, EReal.inv_top, mul_zero]
  | coe r =>
    have hne : ((1 + Real.exp (-r) : ℝ) : EReal) ≠ 0 := by
      have : (0 : ℝ) < 1 + Real.exp (-r) := by positivity
      exact_mod_cast this.ne'
    show ((1/2 : ℝ) : EReal) * (((Real.tanh ((1/2) * r) : ℝ) : EReal) + ((1 : ℝ) : EReal))
      = Ideal.div ((1 : ℝ) : EReal) (((1 : ℝ) : EReal) + ((Real.exp (-r) : ℝ) : EReal))
    rw [← EReal.coe_add, ← EReal.coe_add, ← EReal.coe_mul, Ideal.div, if_neg hne, ← EReal.coe_inv, ← EReal.coe_mul,
      real_sigm]
  | top =>
    -- left: ½ · ⊤ = ⊤, tanh ⊤ = 1, ½ · (1 + 1) = 1; right: e^(−⊤) = 0, 1 / (1 + 0) = 1
    rw [EReal.coe_mul_top_of_pos hpos, EReal.neg_top]
    show ((1/2 : ℝ) : EReal) * ((1 : EReal) + 1) = Ideal.div 1 (1 + 0)
    rw [half_mul_two, add_zero, Ideal.div, if_neg one_ne_zero, inv_one, mul_one]

end Cert.LstmLaws

end
-- ==== Proof.CellBridge.lean ====
/-
  The body's entries are the specification's, once each block is read where it sits in its array.

  Suppose the body's x, h and c blocks are rows p of the arrays X, H and C (row r of the block being row p of the
  array), its weight operand is the two transposes one above the other (W[k,n] = Wx[n,k], W[512+k,n] = Wh[n,k]) and
  its bias operand the row bx + bh. Then the pre-activation the body forms is the specification's, term by term;
  a gate written ½·(tanh(½·z) + 1) is the logistic function 1 / (1 + e^(−z)) of the same z, for every extended real
  z; and so the body's two stores are the specification's next cell state and next hidden state at (p, q).
-/
import proofs.«128756_j28501402976812_2_alg».proof.Proof.KernelCell
import proofs.«128756_j28501402976812_2_alg».proof.Proof.LstmLaws

noncomputable section

namespace Cert.KernelIdeal.CellBridge

open Cert.KernelIdeal Cert.KernelIdeal.CellValue Cert.LstmSpec Idealize.ShloMosaic Idealize.ShloMosaic.ValueIdx

/-- The gate as the body writes it is the logistic function. -/
theorem gateT_eq_sigm (z : EReal) : gateT z = sigm z := Cert.LstmLaws.sigm_eq_tanh_form z

/-- The body's pre-activation is the specification's. -/
theorem blkPre_eq_pre (xb hb : S512x512.Idx → EReal) (W : S1024x2048.Idx → EReal) (b : S1x2048.Idx → EReal)
    (X H : Mat 16384 512) (Wx Wh : Mat 2048 512) (bx bh : Col 2048) (p : Fin 16384) (r : Fin 512) (n : Fin 2048)
    (hx : ∀ k : Fin 512, xb (ix2 r k) = X (ix2 p k)) (hh : ∀ k : Fin 512, hb (ix2 r k) = H (ix2 p k))
    (hWt : ∀ k : Fin 512, W (ix2 (⟨k.val, by have := k.isLt; omega⟩ : Fin 1024) n) = Wx (ix2 n k))
    (hWb : ∀ k : Fin 512, W (ix2 (⟨512 + k.val, by have := k.isLt; omega⟩ : Fin 1024) n) = Wh (ix2 n k))
    (hb0 : b (ix2 (0 : Fin 1) n) = bx (ix1 n) + bh (ix1 n)) :
    blkPre xb hb W b r n = pre X H Wx Wh bx bh p n := by
  unfold blkPre pre
  rw [hb0]
  congr 1
  congr 1
  · exact Finset.sum_congr rfl fun k _ => by rw [hx, hWt]
  · exact Finset.sum_congr rfl fun k _ => by rw [hh, hWb]

/-- The body's first store is the specification's next cell state. -/
theorem blkCell_eq (xb hb cb : S512x512.Idx → EReal) (W : S1024x2048.Idx → EReal) (b : S1x2048.Idx → EReal)
    (X H C : Mat 16384 512) (Wx Wh : Mat 2048 512) (bx bh : Col 2048) (p : Fin 16384) (r q : Fin 512)
    (hpre : ∀ n : Fin 2048, blkPre xb hb W b r n = pre X H Wx Wh bx bh p n) (hc : cb (ix2 r q) = C (ix2 p q)) :
    blkCell xb hb cb W b r q = cellNext X H C Wx Wh bx bh p q := by
  unfold blkCell cellNext
  rw [hpre, hpre, hpre, hc, gateT_eq_sigm, gateT_eq_sigm]

/-- The body's second store is the specification's next hidden state. -/
theorem blkHidden_eq (xb hb cb : S512x512.Idx → EReal) (W : S1024x2048.Idx → EReal) (b : S1x2048.Idx → EReal)
    (X H C : Mat 16384 512) (Wx Wh : Mat 2048 512) (bx bh : Col 2048) (p : Fin 16384) (r q : Fin 512)
    (hpre : ∀ n : Fin 2048, blkPre xb hb W b r n = pre X H Wx Wh bx bh p n) (hc : cb (ix2 r q) = C (ix2 p q)) :
    blkHidden xb hb cb W b r q = hiddenNext X H C Wx Wh bx bh p q := by
  unfold blkHidden hiddenNext
  rw [hpre, gateT_eq_sigm, blkCell_eq xb hb cb W b X H C Wx Wh bx bh p r q hpre hc]

end Cert.KernelIdeal.CellBridge

end
-- ==== Proof.KernelBlocks.lean ====
/-
  After the run the kernel's two result arrays are the specification's next hidden state and next cell state of the
  program's arguments.

  At grid point t the three batch inputs' blocks are rows 512·t … 512·t + 511 of x, h and c (row r of the block is row
  512·t + r of the array), the weight and bias blocks are the whole operands the host computed, and the two result
  blocks are the same rows of the results. So what point t writes back is block t of the specification's array; the
  32 blocks fill the 16384 rows (row i lies in the block of the point i / 512); hence each result array IS the
  specification's array.
-/
import proofs.«128756_j28501402976812_2_alg».proof.Proof.KernelIdealFrame
import proofs.«128756_j28501402976812_2_alg».proof.Proof.KernelParams
import proofs.«128756_j28501402976812_2_alg».proof.Proof.CellBridge
import Idealize.ShloMosaic.Lib.Pipeline.Value
import Idealize.ShloMosaic.Lib.ValueIdx

set_option maxRecDepth 16384

noncomputable section

namespace Cert.KernelIdeal.BlockValue

open Cert.KernelIdeal Cert.KernelIdeal.Gen Cert.KernelIdeal.Hand Cert.KernelIdeal.ParamValue Cert.KernelIdeal.CellValue
open Cert.KernelIdeal.CellBridge Cert.LstmSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The specification's two arrays of the program's arguments, on core `c`. -/
def specH (c : Dev nD) : S16384x512.Idx → EReal :=
  hiddenArr (m ((c : Thread nD τ).loc main_arg0)) (m ((c : Thread nD τ).loc main_arg1)) (m ((c : Thread nD τ).loc main_arg2))
    (Wx m c) (Wh m c) (bx m c) (bh m c)
def specC (c : Dev nD) : S16384x512.Idx → EReal :=
  cellArr (m ((c : Thread nD τ).loc main_arg0)) (m ((c : Thread nD τ).loc main_arg1)) (m ((c : Thread nD τ).loc main_arg2))
    (Wx m c) (Wh m c) (bx m c) (bh m c)

/-- The block index maps, decided over the 32 grid points: the batch windows and the results move with the point, the
    weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `r` of point `t`'s block is row 512·t + r of the array. -/
def rowOf (t : Fin cfg0.N) (r : Fin 512) : Fin 16384 :=
  ⟨t.val * 512 + r.val, by have h : t.val < 32 := Nat.lt_of_lt_of_eq t.isLt N_0
                           have := r.isLt; omega⟩

/-! ## The blocks, read where they sit in their arrays -/

/-- The x block. -/
theorem read_x (c : Dev nD) (t : Fin cfg0.N) (r k : Fin 512) :
    iblk m c 0 t (ix2 r k) = m ((c : Thread nD τ).loc main_arg0) (ix2 (rowOf t r) k) := by
  have e0 : win0_0.index t (0 : Fin 2) = t.val := (idx_facts t).1
  have e1 : win0_0.index t (1 : Fin 2) = 0 := (idx_facts t).2.1
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = t.val * 512 + r.val; omega
  | ⟨1, _⟩ => show win0_0.index t (1 : Fin 2) * 512 + 1 * k.val = k.val; omega

/-- The h block. -/
theorem read_h (c : Dev nD) (t : Fin cfg0.N) (r k : Fin 512) :
    iblk m c 1 t (ix2 r k) = m ((c : Thread nD τ).loc main_arg1) (ix2 (rowOf t r) k) := by
  have e0 : win0_1.index t (0 : Fin 2) = t.val := (idx_facts t).2.2.1
  have e1 : win0_1.index t (1 : Fin 2) = 0 := (idx_facts t).2.2.2.1
  show V m c main_arg1 (((cfg0.win 1).blk t).view.emb (ix2 r k)) = _
  rw [V_main_arg1]
  refine congrArg _ (funext fun a => Fin.ext ?_)
  match a with
  | ⟨0, _⟩ => show win0_1.index t (0 : Fin 2) * 512 + 1 * r.val = t.val * 512 + r.val; omega
  | ⟨1, _⟩ => show win0_1.index t (1 : Fin 2) * 512 + 1 * k.val = k.val; omega

/-- The c block. -/
theorem read_c (c : Dev nD) (t : Fin cfg0.N) (r k : Fin 512) :
    iblk m c 2 t (ix2 r k) = m ((c : Thread nD τ).loc main_arg2) (ix2 (rowOf t r) k) := by
  have e0 : win0_2.index t (0 : Fin 2) = t.val := (idx_facts t).2.2.2.2.1
  have e1 : win0_2.index t (1 : Fin 2) = 0 := (idx_facts t).2.2.2.2.2.1
  show V m c main_arg2 (((cfg0.win 2).blk t).view.emb (ix2 r k)) = _
  rw [V_main_arg2]
  refine congrArg _ (funext fun a => Fin.ext ?_)
  match a with
  | ⟨0, _⟩ => show win0_2.index t (0 : Fin 2) * 512 + 1 * r.val = t.val * 512 + r.val; omega
  | ⟨1, _⟩ => show win0_2.index t (1 : Fin 2) * 512 + 1 * k.val = k.val; omega

/-- The weight block is the whole weight operand. -/
theorem read_W (c : Dev nD) (t : Fin cfg0.N) (k : Fin 1024) (n : Fin 2048) :
    iblk m c 3 t (ix2 k n) = (V m c main_v9 : S1024x2048.Idx → EReal) (ix2 k n) := by
  have e0 : win0_3.index t (0 : Fin 2) = 0 := (idx_facts t).2.2.2.2.2.2.1
  have e1 : win0_3.index t (1 : Fin 2) = 0 := (idx_facts t).2.2.2.2.2.2.2.1
  show V m c main_v9 (((cfg0.win 3).blk t).view.emb (ix2 k n)) = _
  refine congrArg _ (funext fun a => Fin.ext ?_)
  match a with
  | ⟨0, _⟩ => show win0_3.index t (0 : Fin 2) * 1024 + 1 * k.val = k.val; omega
  | ⟨1, _⟩ => show win0_3.index t (1 : Fin 2) * 2048 + 1 * n.val = n.val; omega

/-- The bias block is the whole bias row. -/
theorem read_b (c : Dev nD) (t : Fin cfg0.N) (n : Fin 2048) :
    iblk m c 4 t (ix2 (0 : Fin 1) n) = (V m c main_v5 : S1x2048.Idx → EReal) (ix2 (0 : Fin 1) n) := by
  have e0 : win0_4.index t (0 : Fin 2) = 0 := (idx_facts t).2.2.2.2.2.2.2.2.1
  have e1 : win0_4.index t (1 : Fin 2) = 0 := (idx_facts t).2.2.2.2.2.2.2.2.2.1
  show V m c main_v5 (((cfg0.win 4).blk t).view.emb (ix2 (0 : Fin 1) n)) = _
  refine congrArg _ (funext fun a => Fin.ext ?_)
  match a with
  | ⟨0, _⟩ => show win0_4.index t (0 : Fin 2) * 1 + 1 * 0 = 0; omega
  | ⟨1, _⟩ => show win0_4.index t (1 : Fin 2) * 2048 + 1 * n.val = n.val; omega

/-- The pre-activation the body forms at point `t`, row `r`, is the specification's at row 512·t + r. -/
theorem pre_at (c : Dev nD) (t : Fin cfg0.N) (r : Fin 512) (n : Fin 2048) :
    blkPre (iblk m c 0 t) (iblk m c 1 t) (iblk m c 3 t) (iblk m c 4 t) r n
      = pre (m ((c : Thread nD τ).loc main_arg0)) (m ((c : Thread nD τ).loc main_arg1)) (Wx m c) (Wh m c) (bx m c) (bh m c) (rowOf t r) n :=
  blkPre_eq_pre _ _ _ _ _ _ _ _ _ _ (rowOf t r) r n (read_x m c t r) (read_h m c t r)
    (fun k => (read_W m c t _ n).trans (weights_top m c k n)) (fun k => (read_W m c t _ n).trans (weights_bottom m c k n))
    ((read_b m c t n).trans (bias_apply m c n))

/-! ### The hidden-state result -/

/-- What grid point `t` writes back is block `t` of the specification's array. -/
theorem flushed5_eq (c : Dev nD) (t : Fin cfg0.N) :
    (dats m 0 c).flushed 5 t = ((cfg0.win 5).blk t).view.read (Elt Ideal) (specH m c) := by
  show (cfg0.win 5).cut (grid0.coords t) ((dats m 0 c).after 5 t) = _
  rw [after_outH]
  unfold outH
  rw [View.canon_unit_zero hz]
  unfold hiddenPay
  simp only [View.ld_unit_zero (S := S512x512) hz, View.ld_unit_zero (S := S1024x2048) hz, View.ld_unit_zero (S := S1x2048) hz]
  funext j
  have hj := eq_ix2 (n0 := 512) (n1 := 512) j
  rw [hj]
  refine (hidden_apply (iblk m c 0 t) (iblk m c 1 t) (iblk m c 2 t) (iblk m c 3 t) (iblk m c 4 t) (j 0) (j 1)).trans ?_
  have e0 : win0_5.index t (0 : Fin 2) = t.val := (idx_facts t).2.2.2.2.2.2.2.2.2.2.1
  have e1 : win0_5.index t (1 : Fin 2) = 0 := (idx_facts t).2.2.2.2.2.2.2.2.2.2.2.1
  have hemb : ((cfg0.win 5).blk t).view.emb (ix2 (j 0) (j 1)) = ix2 (rowOf t (j 0)) (j 1) := by
    funext a; apply Fin.ext
    match a with
    | ⟨0, _⟩ => show win0_5.index t (0 : Fin 2) * 512 + 1 * (j 0).val = t.val * 512 + (j 0).val; omega
    | ⟨1, _⟩ => show win0_5.index t (1 : Fin 2) * 512 + 1 * (j 1).val = (j 1).val; omega
  show _ = specH m c (((cfg0.win 5).blk t).view.emb (ix2 (j 0) (j 1)))
  rw [hemb]
  exact blkHidden_eq _ _ _ _ _ _ _ _ _ _ _ _ (rowOf t (j 0)) (j 0) (j 1) (pre_at m c t (j 0)) (read_c m c t (j 0) (j 1))

/-- An index of the array is in point `t`'s block iff each coordinate is in the block's range on its axis. -/
theorem mem_blk5 (t : Fin cfg0.N) (i : S16384x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v10_0).slice (win0_5.rect t)).set ↔ _
  rw [View.set_slice_whole, Rect.mem_set_unit]
  exact Iff.rfl

/-- Row `i` of the array is in the block of the point `i / 512`: the 32 blocks of 512 rows fill the 16384 rows. -/
theorem cover5 (i : S16384x512.Idx) : ∃ t : Fin cfg0.N, (cfg0.win 5).flush t = true ∧ i ∈ ((cfg0.win 5).blk t).view.set := by
  have hi0 : (i 0).val < 16384 := (i 0).isLt
  have hi1 : (i 1).val < 512 := (i 1).isLt
  have hN : cfg0.N = 32 := N_0
  let t : Fin cfg0.N := ⟨(i 0).val / 512, by rw [hN]; omega⟩
  have ht : t.val = (i 0).val / 512 := rfl
  have e0 : win0_5.index t (0 : Fin 2) = t.val := (idx_facts t).2.2.2.2.2.2.2.2.2.2.1
  have e1 : win0_5.index t (1 : Fin 2) = 0 := (idx_facts t).2.2.2.2.2.2.2.2.2.2.2.1
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- The array after the run is the specification's. -/
theorem final5 (c : Dev nD) : (dats m 0 c).arrAt 5 cfg0.N = specH m c :=
  (dats m 0 c).arrAt_eq_of_cover 5 _ (fun t _ => flushed5_eq m c t) cover5

/-! ### The cell-state result -/

/-- What grid point `t` writes back is block `t` of the specification's array. -/
theorem flushed6_eq (c : Dev nD) (t : Fin cfg0.N) :
    (dats m 0 c).flushed 6 t = ((cfg0.win 6).blk t).view.read (Elt Ideal) (specC m c) := by
  show (cfg0.win 6).cut (grid0.coords t) ((dats m 0 c).after 6 t) = _
  rw [after_outC]
  unfold outC
  rw [View.canon_unit_zero hz]
  unfold cellPay
  simp only [View.ld_unit_zero (S := S512x512) hz, View.ld_unit_zero (S := S1024x2048) hz, View.ld_unit_zero (S := S1x2048) hz]
  funext j
  have hj := eq_ix2 (n0 := 512) (n1 := 512) j
  rw [hj]
  refine (cell_apply (iblk m c 0 t) (iblk m c 1 t) (iblk m c 2 t) (iblk m c 3 t) (iblk m c 4 t) (j 0) (j 1)).trans ?_
  have e0 : win0_6.index t (0 : Fin 2) = t.val := (idx_facts t).2.2.2.2.2.2.2.2.2.2.2.2.1
  have e1 : win0_6.index t (1 : Fin 2) = 0 := (idx_facts t).2.2.2.2.2.2.2.2.2.2.2.2.2
  have hemb : ((cfg0.win 6).blk t).view.emb (ix2 (j 0) (j 1)) = ix2 (rowOf t (j 0)) (j 1) := by
    funext a; apply Fin.ext
    match a with
    | ⟨0, _⟩ => show win0_6.index t (0 : Fin 2) * 512 + 1 * (j 0).val = t.val * 512 + (j 0).val; omega
    | ⟨1, _⟩ => show win0_6.index t (1 : Fin 2) * 512 + 1 * (j 1).val = (j 1).val; omega
  show _ = specC m c (((cfg0.win 6).blk t).view.emb (ix2 (j 0) (j 1)))
  rw [hemb]
  exact blkCell_eq _ _ _ _ _ _ _ _ _ _ _ _ (rowOf t (j 0)) (j 0) (j 1) (pre_at m c t (j 0)) (read_c m c t (j 0) (j 1))

/-- An index of the array is in point `t`'s block iff each coordinate is in the block's range on its axis. -/
theorem mem_blk6 (t : Fin cfg0.N) (i : S16384x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v10_1).slice (win0_6.rect t)).set ↔ _
  rw [View.set_slice_whole, Rect.mem_set_unit]
  exact Iff.rfl

/-- Row `i` of the array is in the block of the point `i / 512`: the 32 blocks of 512 rows fill the 16384 rows. -/
theorem cover6 (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  have hN : cfg0.N = 32 := N_0
  let t : Fin cfg0.N := ⟨(i 0).val / 512, by rw [hN]; omega⟩
  have ht : t.val = (i 0).val / 512 := rfl
  have e0 : win0_6.index t (0 : Fin 2) = t.val := (idx_facts t).2.2.2.2.2.2.2.2.2.2.2.2.1
  have e1 : win0_6.index t (1 : Fin 2) = 0 := (idx_facts t).2.2.2.2.2.2.2.2.2.2.2.2.2
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-- The array after the run is the specification's. -/
theorem final6 (c : Dev nD) : (dats m 0 c).arrAt 6 cfg0.N = specC m c :=
  (dats m 0 c).arrAt_eq_of_cover 6 _ (fun t _ => flushed6_eq m c t) cover6

/-! ## The run, read -/

/-- Every weakly fair execution of the program terminates with the two results at the specification's arrays of the
    arguments, and the arguments unchanged. -/
theorem run : θ_run defs (onTc (τ := τ) (main (F := Ideal))) ⟨m, fun _ => 0, ρ⟩ fun r => ∀ c : Dev nD,
      r.2.mem ((c.tc : Thread nD τ).loc main_v10_0) = specH m c
      ∧ r.2.mem ((c.tc : Thread nD τ).loc main_v10_1) = specC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩)
    (run_main m ρ)

end Cert.KernelIdeal.BlockValue

end
-- ==== Proof.RefIsSpec.lean ====
/-
  The reference program computes the LSTM cell step of the specification.

  Read entry by entry, the reference's pre-activation array is the specification's `pre`: two matrix products
  against the transposed stacked weights, summed, plus the sum of the two stacked biases broadcast along the
  samples. Its four column blocks of width 512, starting at columns 0, 512, 1024 and 1536, are the input,
  forget, candidate and output gates' pre-activations. The input, forget and output gates are 1 / (1 + e^(−z))
  of theirs and the candidate gate is the hyperbolic tangent of its own; the new cell state is
  forget · c + input · candidate, and the new hidden state is output · tanh(new cell state).

  The four stacked parameter arrays (the concatenations of the per-gate weights and biases) are kept as they
  are: both sides carry them as the arrays Wx, Wh, bx, bh.
-/
import proofs.«128756_j28501402976812_2_alg».proof.Proof.Gen.ReferenceIdeal.Read
import proofs.«128756_j28501402976812_2_alg».proof.Proof.LstmSpec

noncomputable section

namespace Cert.ReferenceIdeal.RefValue

open Cert.ReferenceIdeal Cert.ReferenceIdeal.Read Cert.LstmSpec Idealize.ShloMosaic Idealize.ShloMosaic.ValueIdx

/-! ### Where the composed index maps send a (sample, column) pair -/

/-- The left factor of the x-product is read at (sample, k). -/
theorem lidx5 (p : Fin 16384) (n : Fin 2048) (k : Fin 512) : lidx_main_v5 (ix2 p n) k = ix2 p k :=
  funext fun a => Fin.ext (by match a with | ⟨0, _⟩ => rfl | ⟨1, _⟩ => rfl)

/-- The right factor of the x-product, through the transposition, is read at (column, k). -/
theorem ridx5 (p : Fin 16384) (n : Fin 2048) (k : Fin 512) : idx_main_v4 (ridx_main_v5 (ix2 p n) k) = ix2 n k :=
  funext fun a => Fin.ext (by match a with | ⟨0, _⟩ => rfl | ⟨1, _⟩ => rfl)

/-- The left factor of the h-product is read at (sample, k). -/
theorem lidx7 (p : Fin 16384) (n : Fin 2048) (k : Fin 512) : lidx_main_v7 (ix2 p n) k = ix2 p k :=
  funext fun a => Fin.ext (by match a with | ⟨0, _⟩ => rfl | ⟨1, _⟩ => rfl)

/-- The right factor of the h-product, through the transposition, is read at (column, k). -/
theorem ridx7 (p : Fin 16384) (n : Fin 2048) (k : Fin 512) : idx_main_v6 (ridx_main_v7 (ix2 p n) k) = ix2 n k :=
  funext fun a => Fin.ext (by match a with | ⟨0, _⟩ => rfl | ⟨1, _⟩ => rfl)

/-- The bias, broadcast along the samples, is read at the column. -/
theorem bidx (p : Fin 16384) (n : Fin 2048) : idx_main_v10 (idx_main_v11 (ix2 p n)) = ix1 n :=
  funext fun a => Fin.ext (by match a with | ⟨0, _⟩ => rfl)

/-- The four column blocks: block `o` at (sample, q) is the full array at (sample, o + q). -/
theorem sidx13 (p : Fin 16384) (q : Fin 512) : idx_main_v13 (ix2 p q) = ix2 p (gcol 0 q (by decide)) :=
  funext fun a => Fin.ext (by match a with | ⟨0, _⟩ => rfl | ⟨1, _⟩ => exact (Nat.zero_add _).symm)
theorem sidx14 (p : Fin 16384) (q : Fin 512) : idx_main_v14 (ix2 p q) = ix2 p (gcol 512 q (by decide)) :=
  funext fun a => Fin.ext (by match a with | ⟨0, _⟩ => rfl | ⟨1, _⟩ => rfl)
theorem sidx15 (p : Fin 16384) (q : Fin 512) : idx_main_v15 (ix2 p q) = ix2 p (gcol 1024 q (by decide)) :=
  funext fun a => Fin.ext (by match a with | ⟨0, _⟩ => rfl | ⟨1, _⟩ => rfl)
theorem sidx16 (p : Fin 16384) (q : Fin 512) : idx_main_v16 (ix2 p q) = ix2 p (gcol 1536 q (by decide)) :=
  funext fun a => Fin.ext (by match a with | ⟨0, _⟩ => rfl | ⟨1, _⟩ => rfl)

section
variable (x0 x1 x2 : (⟨S16384x512, .f32⟩ : BufTy).Contents (Elt Ideal))
  (x3 : (⟨S512x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))
  (x9 : (⟨S512x512, .f32⟩ : BufTy).Contents (Elt Ideal)) (x10 : (⟨S512, .f32⟩ : BufTy).Contents (Elt Ideal))
  (x11 : (⟨S512x512, .f32⟩ : BufTy).Contents (Elt Ideal)) (x12 : (⟨S512, .f32⟩ : BufTy).Contents (Elt Ideal))
  (x13 : (⟨S512x512, .f32⟩ : BufTy).Contents (Elt Ideal)) (x14 : (⟨S512, .f32⟩ : BufTy).Contents (Elt Ideal))
  (x15 : (⟨S512x512, .f32⟩ : BufTy).Contents (Elt Ideal)) (x16 : (⟨S512, .f32⟩ : BufTy).Contents (Elt Ideal))
  (x17 : (⟨S512x512, .f32⟩ : BufTy).Contents (Elt Ideal)) (x18 : (⟨S512, .f32⟩ : BufTy).Contents (Elt Ideal))

/-! ### The pre-activations -/

/-- The reference's pre-activation array, at sample `p` and gate column `n`, is the specification's. -/
theorem v12_at (p : Fin 16384) (n : Fin 2048) :
    val_main_v12 (F := Ideal) x0 x1 x3 x4 x5 x6 x7 x8 x9 x10 x11 x12 x13 x14 x15 x16 x17 x18 (ix2 p n) = pre x0 x1 (val_main_v0 (F := Ideal) x3 x5 x7 x9) (val_main_v1 (F := Ideal) x11 x13 x15 x17) (val_main_v2 (F := Ideal) x4 x6 x8 x10) (val_main_v3 (F := Ideal) x12 x14 x16 x18) p n := by
  rw [val_main_v12_apply, val_main_v8_apply, val_main_v5_apply, val_main_v7_apply, val_main_v11_apply, val_main_v10_apply,
    val_main_v9_apply, bidx]
  simp only [val_main_v4_apply, val_main_v6_apply, lidx5, ridx5, lidx7, ridx7]
  rfl

/-- The four gates' pre-activations are the four column blocks. -/
theorem v13_at (p : Fin 16384) (q : Fin 512) :
    val_main_v13 (F := Ideal) x0 x1 x3 x4 x5 x6 x7 x8 x9 x10 x11 x12 x13 x14 x15 x16 x17 x18 (ix2 p q) = pre x0 x1 (val_main_v0 (F := Ideal) x3 x5 x7 x9) (val_main_v1 (F := Ideal) x11 x13 x15 x17) (val_main_v2 (F := Ideal) x4 x6 x8 x10) (val_main_v3 (F := Ideal) x12 x14 x16 x18) p (gcol 0 q (by decide)) := by
  rw [val_main_v13_apply, sidx13, v12_at]
theorem v14_at (p : Fin 16384) (q : Fin 512) :
    val_main_v14 (F := Ideal) x0 x1 x3 x4 x5 x6 x7 x8 x9 x10 x11 x12 x13 x14 x15 x16 x17 x18 (ix2 p q) = pre x0 x1 (val_main_v0 (F := Ideal) x3 x5 x7 x9) (val_main_v1 (F := Ideal) x11 x13 x15 x17) (val_main_v2 (F := Ideal) x4 x6 x8 x10) (val_main_v3 (F := Ideal) x12 x14 x16 x18) p (gcol 512 q (by decide)) := by
  rw [val_main_v14_apply, sidx14, v12_at]
theorem v15_at (p : Fin 16384) (q : Fin 512) :
    val_main_v15 (F := Ideal) x0 x1 x3 x4 x5 x6 x7 x8 x9 x10 x11 x12 x13 x14 x15 x16 x17 x18 (ix2 p q) = pre x0 x1 (val_main_v0 (F := Ideal) x3 x5 x7 x9) (val_main_v1 (F := Ideal) x11 x13 x15 x17) (val_main_v2 (F := Ideal) x4 x6 x8 x10) (val_main_v3 (F := Ideal) x12 x14 x16 x18) p (gcol 1024 q (by decide)) := by
  rw [val_main_v15_apply, sidx15, v12_at]
theorem v16_at (p : Fin 16384) (q : Fin 512) :
    val_main_v16 (F := Ideal) x0 x1 x3 x4 x5 x6 x7 x8 x9 x10 x11 x12 x13 x14 x15 x16 x17 x18 (ix2 p q) = pre x0 x1 (val_main_v0 (F := Ideal) x3 x5 x7 x9) (val_main_v1 (F := Ideal) x11 x13 x15 x17) (val_main_v2 (F := Ideal) x4 x6 x8 x10) (val_main_v3 (F := Ideal) x12 x14 x16 x18) p (gcol 1536 q (by decide)) := by
  rw [val_main_v16_apply, sidx16, v12_at]

/-! ### The gates -/

/-- The input gate. -/
theorem v22_at (p : Fin 16384) (q : Fin 512) :
    val_main_v22 (F := Ideal) x0 x1 x3 x4 x5 x6 x7 x8 x9 x10 x11 x12 x13 x14 x15 x16 x17 x18 (ix2 p q) = sigm (pre x0 x1 (val_main_v0 (F := Ideal) x3 x5 x7 x9) (val_main_v1 (F := Ideal) x11 x13 x15 x17) (val_main_v2 (F := Ideal) x4 x6 x8 x10) (val_main_v3 (F := Ideal) x12 x14 x16 x18) p (gcol 0 q (by decide))) := by
  rw [val_main_v22_apply, val_main_v21_apply, val_main_cst_0_apply, val_main_v20_apply, val_main_v19_apply,
    val_main_cst_apply, val_main_v18_apply, val_main_v17_apply, v13_at]
  rfl

/-- The forget gate. -/
theorem v28_at (p : Fin 16384) (q : Fin 512) :
    val_main_v28 (F := Ideal) x0 x1 x3 x4 x5 x6 x7 x8 x9 x10 x11 x12 x13 x14 x15 x16 x17 x18 (ix2 p q) = sigm (pre x0 x1 (val_main_v0 (F := Ideal) x3 x5 x7 x9) (val_main_v1 (F := Ideal) x11 x13 x15 x17) (val_main_v2 (F := Ideal) x4 x6 x8 x10) (val_main_v3 (F := Ideal) x12 x14 x16 x18) p (gcol 512 q (by decide))) := by
  rw [val_main_v28_apply, val_main_v27_apply, val_main_cst_2_apply, val_main_v26_apply, val_main_v25_apply,
    val_main_cst_1_apply, val_main_v24_apply, val_main_v23_apply, v14_at]
  rfl

/-- The candidate. -/
theorem v29_at (p : Fin 16384) (q : Fin 512) :
    val_main_v29 (F := Ideal) x0 x1 x3 x4 x5 x6 x7 x8 x9 x10 x11 x12 x13 x14 x15 x16 x17 x18 (ix2 p q) = Ideal.tanh (pre x0 x1 (val_main_v0 (F := Ideal) x3 x5 x7 x9) (val_main_v1 (F := Ideal) x11 x13 x15 x17) (val_main_v2 (F := Ideal) x4 x6 x8 x10) (val_main_v3 (F := Ideal) x12 x14 x16 x18) p (gcol 1024 q (by decide))) := by
  rw [val_main_v29_apply, v15_at]
  rfl

/-- The output gate. -/
theorem v35_at (p : Fin 16384) (q : Fin 512) :
    val_main_v35 (F := Ideal) x0 x1 x3 x4 x5 x6 x7 x8 x9 x10 x11 x12 x13 x14 x15 x16 x17 x18 (ix2 p q) = sigm (pre x0 x1 (val_main_v0 (F := Ideal) x3 x5 x7 x9) (val_main_v1 (F := Ideal) x11 x13 x15 x17) (val_main_v2 (F := Ideal) x4 x6 x8 x10) (val_main_v3 (F := Ideal) x12 x14 x16 x18) p (gcol 1536 q (by decide))) := by
  rw [val_main_v35_apply, val_main_v34_apply, val_main_cst_4_apply, val_main_v33_apply, val_main_v32_apply,
    val_main_cst_3_apply, val_main_v31_apply, val_main_v30_apply, v16_at]
  rfl

/-! ### The two results -/

/-- The new cell state, entry by entry. -/
theorem v38_at (p : Fin 16384) (q : Fin 512) :
    val_main_v38 (F := Ideal) x0 x1 x2 x3 x4 x5 x6 x7 x8 x9 x10 x11 x12 x13 x14 x15 x16 x17 x18 (ix2 p q) = cellNext x0 x1 x2 (val_main_v0 (F := Ideal) x3 x5 x7 x9) (val_main_v1 (F := Ideal) x11 x13 x15 x17) (val_main_v2 (F := Ideal) x4 x6 x8 x10) (val_main_v3 (F := Ideal) x12 x14 x16 x18) p q := by
  rw [val_main_v38_apply, val_main_v36_apply, val_main_v37_apply, v28_at, v22_at, v29_at]
  rfl

/-- The new hidden state, entry by entry. -/
theorem v40_at (p : Fin 16384) (q : Fin 512) :
    val_main_v40 (F := Ideal) x0 x1 x2 x3 x4 x5 x6 x7 x8 x9 x10 x11 x12 x13 x14 x15 x16 x17 x18 (ix2 p q) = hiddenNext x0 x1 x2 (val_main_v0 (F := Ideal) x3 x5 x7 x9) (val_main_v1 (F := Ideal) x11 x13 x15 x17) (val_main_v2 (F := Ideal) x4 x6 x8 x10) (val_main_v3 (F := Ideal) x12 x14 x16 x18) p q := by
  rw [val_main_v40_apply, val_main_v39_apply, v35_at, v38_at]
  rfl

/-- The reference's second result is the specification's new cell state. -/
theorem ref_cell :
    val_main_v38 (F := Ideal) x0 x1 x2 x3 x4 x5 x6 x7 x8 x9 x10 x11 x12 x13 x14 x15 x16 x17 x18 = cellArr x0 x1 x2 (val_main_v0 (F := Ideal) x3 x5 x7 x9) (val_main_v1 (F := Ideal) x11 x13 x15 x17) (val_main_v2 (F := Ideal) x4 x6 x8 x10) (val_main_v3 (F := Ideal) x12 x14 x16 x18) := by
  funext j
  obtain ⟨p, q, rfl⟩ : ∃ (p : Fin 16384) (q : Fin 512), j = ix2 p q :=
    ⟨⟨(j 0).val, idx2_lt0 j⟩, ⟨(j 1).val, idx2_lt1 j⟩, eq_ix2 j⟩
  rw [cellArr_apply, v38_at]

/-- The reference's first result is the specification's new hidden state. -/
theorem ref_hidden :
    val_main_v40 (F := Ideal) x0 x1 x2 x3 x4 x5 x6 x7 x8 x9 x10 x11 x12 x13 x14 x15 x16 x17 x18 = hiddenArr x0 x1 x2 (val_main_v0 (F := Ideal) x3 x5 x7 x9) (val_main_v1 (F := Ideal) x11 x13 x15 x17) (val_main_v2 (F := Ideal) x4 x6 x8 x10) (val_main_v3 (F := Ideal) x12 x14 x16 x18) := by
  funext j
  obtain ⟨p, q, rfl⟩ : ∃ (p : Fin 16384) (q : Fin 512), j = ix2 p q :=
    ⟨⟨(j 0).val, idx2_lt0 j⟩, ⟨(j 1).val, idx2_lt1 j⟩, eq_ix2 j⟩
  rw [hiddenArr_apply, v40_at]

end

end Cert.ReferenceIdeal.RefValue

end
-- ==== Proof.lean ====
/-
  The five claims about the LSTM cell kernel and its reference.

  Both programs stack the four gates' weights and biases in the same way and compute, for every sample p and unit q,

      c'[p,q] = σ(z_f) · c[p,q] + σ(z_i) · tanh(z_g),      h'[p,q] = σ(z_o) · tanh(c'[p,q]),

  where z_i, z_f, z_g, z_o are the pre-activations  x[p,:]·Wx[n,:] + h[p,:]·Wh[n,:] + (bx[n] + bh[n])  at the gate
  columns n = q, 512 + q, 1024 + q, 1536 + q, and σ is the logistic function. The kernel forms each pre-activation as
  ONE product of the row [x | h] with the weights stacked as [Wxᵀ ; Whᵀ] (a sum of 1024 terms, which is the sum of its
  two halves) and writes σ(z) as ½·(tanh(½·z) + 1); the reference forms two products and adds them, and writes σ(z) as
  1 / (1 + e^(−z)). Over the extended reals the two are one function of the arguments — at every z, the infinities
  included — so no finiteness of the inputs is used.

  The frames: each program runs to its end without a fault and leaves its arguments as they were (the kernel programs
  by the run of their one region over its 32 grid points, the reference by its run as a line of host operations).
  Nothing was rewritten to idealize the kernel, so there is nothing to preserve.
-/
import proofs.«128756_j28501402976812_2_alg».proof.Defs
import proofs.«128756_j28501402976812_2_alg».proof.Proof.Gen.Kernel
import proofs.«128756_j28501402976812_2_alg».proof.Proof.Gen.KernelIdeal
import proofs.«128756_j28501402976812_2_alg».proof.Proof.Gen.ReferenceIdeal
import proofs.«128756_j28501402976812_2_alg».proof.Proof.Gen.Pre_finite_inputs
import proofs.«128756_j28501402976812_2_alg».proof.Proof.Gen.ReferenceIdeal.Run
import proofs.«128756_j28501402976812_2_alg».proof.Proof.Gen.ReferenceIdeal.Read
import proofs.«128756_j28501402976812_2_alg».proof.Proof.KernelFrame
import proofs.«128756_j28501402976812_2_alg».proof.Proof.KernelIdealFrame
import proofs.«128756_j28501402976812_2_alg».proof.Proof.KernelBlocks
import proofs.«128756_j28501402976812_2_alg».proof.Proof.RefIsSpec
import Idealize.ShloMosaic.Adequacy
import Idealize.ShloMosaic.Init

noncomputable section

namespace Cert.Proof

open Idealize.ShloMosaic Idealize.SL.Sem

/-- The kernel program, read at words, runs and keeps its arguments. -/
theorem frame_kernel : Cert.frame_Kernel := fun m ρ _ => Cert.Kernel.Hand.frame (F := Bits) m ρ

/-- The same program read at extended reals runs and keeps its arguments. -/
theorem frame_kernelIdeal : Cert.frame_KernelIdeal := fun m ρ _ => Cert.KernelIdeal.Hand.frame (F := Ideal) m ρ

/-- The reference runs and keeps its arguments: its run, with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments, both programs end with the specification's two arrays of those
    arguments: the kernel's result arrays block by block, the reference's as its operations' composed term. -/
theorem algebraic : Cert.algebraic_KernelIdeal_ReferenceIdeal := by
  intro m ρ m' ρ' _ hagree
  refine ⟨fun c => Cert.KernelIdeal.BlockValue.specH m c, fun c => Cert.KernelIdeal.BlockValue.specC m c,
    Cert.KernelIdeal.BlockValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18⟩ := hagree c
    rw [Cert.ReferenceIdeal.Read.val_main_v40_eq, Cert.ReferenceIdeal.RefValue.ref_hidden, h0, h1, h2, h3, h4, h5, h6, h7, h8, h9, h10, h11, h12, h13, h14, h15, h16, h17, h18]
    rfl
  · obtain ⟨h0, h1, h2, h3, h4, h5, h6, h7, h8, h9, h10, h11, h12, h13, h14, h15, h16, h17, h18⟩ := hagree c
    rw [Cert.ReferenceIdeal.Read.val_main_v38_eq, Cert.ReferenceIdeal.RefValue.ref_cell, h0, h1, h2, h3, h4, h5, h6, h7, h8, h9, h10, h11, h12, h13, h14, h15, h16, h17, h18]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
